-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S3200000 32) (main_arg2 : IVec S3200000 32) (main_arg3 : FVec F S3200000 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S5000x64 : Shape := ⟨2, ![5000, 64]⟩
abbrev S3200000x1 : Shape := ⟨2, ![3200000, 1]⟩
abbrev S_ : Shape := ⟨0, ![]⟩
abbrev S3200000x64 : Shape := ⟨2, ![3200000, 64]⟩
abbrev S1x64 : Shape := ⟨2, ![1, 64]⟩

abbrev nBuf : Space → Nat
  | .hbm => 46
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000x64, .f32⟩
  | .hbm, ⟨9, _⟩ => ⟨S3200000x1, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x64, .f32⟩
  | .hbm, ⟨19, _⟩ => ⟨S3200000x64, .f32⟩
  | .hbm, ⟨20, _⟩ => ⟨S3200000x64, .f32⟩
  | .hbm, ⟨21, _⟩ => ⟨S_, .f32⟩
  | .hbm, ⟨22, _⟩ => ⟨S100000x64, .f32⟩
  | .hbm, ⟨23, _⟩ => ⟨S3200000x1, .i32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S3200000x1, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x64, .f32⟩
  | .hbm, ⟨38, _⟩ => ⟨S3200000x64, .f32⟩
  | .hbm, ⟨39, _⟩ => ⟨S3200000x64, .f32⟩
  | .hbm, ⟨40, _⟩ => ⟨S_, .f32⟩
  | .hbm, ⟨41, _⟩ => ⟨S100000x64, .f32⟩
  | .hbm, ⟨42, _⟩ => ⟨S3200000x1, .i32⟩
  | .hbm, ⟨43, _⟩ => ⟨S100000x64, .f32⟩
  | .hbm, ⟨44, _⟩ => ⟨S1x64, .f32⟩
  | .hbm, ⟨45, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x64_S64x64_S5000x64_1_0_0_1_n_n_wf : DotDims.WF S5000x64 S64x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S3200000x1 : Shape := ⟨2, ![3200000, 1]⟩
abbrev S_ : Shape := ⟨0, ![]⟩
abbrev S3200000x64 : Shape := ⟨2, ![3200000, 64]⟩
abbrev S1x64 : Shape := ⟨2, ![1, 64]⟩

abbrev nBuf : Space → Nat
  | .hbm => 55
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000x64, .f32⟩
  | .hbm, ⟨9, _⟩ => ⟨S3200000x1, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S3200000x64, .f32⟩
  | .hbm, ⟨19, _⟩ => ⟨S3200000x64, .f32⟩
  | .hbm, ⟨20, _⟩ => ⟨S3200000x64, .f32⟩
  | .hbm, ⟨21, _⟩ => ⟨S_, .f32⟩
  | .hbm, ⟨22, _⟩ => ⟨S100000x64, .f32⟩
  | .hbm, ⟨23, _⟩ => ⟨S3200000x1, .i32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .i1⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S3200000x1, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000x64, .f32⟩
  | .hbm, ⟨46, _⟩ => ⟨S3200000x64, .f32⟩
  | .hbm, ⟨47, _⟩ => ⟨S3200000x64, .f32⟩
  | .hbm, ⟨48, _⟩ => ⟨S_, .f32⟩
  | .hbm, ⟨49, _⟩ => ⟨S100000x64, .f32⟩
  | .hbm, ⟨50, _⟩ => ⟨S3200000x1, .i32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.KernelRun.lean ====
/-
  The idealized kernel program's run with its result buffer read: every weakly fair execution terminates, the
  eight argument arrays end as launched, and the result array ends holding what the last pipelined call's
  write-backs leave in it (`Gen.W6` at the result's buffer: the buffer contents after the sixth and last segment).

  The program is six segments — a pipelined call, a stretch of host operations, two pipelined calls, a stretch of
  host operations, a pipelined call — and the library's launch theorem for such a chain reads every unscoped buffer
  of the final state against the contents after the last segment. The frame claim keeps of that reading the eight
  arguments; here the result's buffer is kept too.
-/
import proofs.«137188_j28621662060799_1_alg».proof.Proof.Gen.KernelIdeal.Frame

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result's buffer read at the contents after the last segment. -/
theorem run_result : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Run

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«137188_j28621662060799_1_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«137188_j28621662060799_1_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.Blocks.lean ====
/-
  From blocks to whole arrays, for each of the four pipelined calls.

  Each call walks a grid of 20 points. At point t its first input window holds rows 5000·t … 5000·t + 4999 of a
  100000 × 64 array, its second input window holds all of a small array, and its output window's block — written
  back at every point — is rows 5000·t … 5000·t + 4999 of the output array. The 20 output blocks tile the output
  array. So if the block the body stores at point t is, for every t, rows 5000·t … of ONE matrix G, the output
  array ends holding G. All of this is stated for any contents V the call may find in its arrays when it is entered.
-/
import proofs.«137188_j28621662060799_1_alg».proof.Proof.Gen.KernelIdeal.Frame
import proofs.«137188_j28621662060799_1_alg».proof.Proof.LibPlainRecord
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.Lib.DenseLayer

variable (V : (c : Dev nD) → (b : Ref sig .tc) → Buf (Elt Ideal) ((c : Thread nD τ).loc b))

/-- The zero offsets of a whole-block access, however spelt. -/
theorem hz : (![0, 0] : Fin 2 → Nat) = fun _ => 0 := funext fun a => by fin_cases a <;> rfl

/-! ## Region 0: input windows over `main_arg0` (blocks of rows) and `main_arg4` (whole), output window over `main_v0` -/

/-- The three index maps over the 20 grid points: the row-blocked windows are at block row `t`, block column 0;
    the small operand's one block is at (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first input window's block at point `t` is rows 5000·t … 5000·t + 4999 of its array. -/
theorem rows0 (c : Dev nD) (t : Fin cfg0.N) :
    RowBlk (5000 * t.val) (iblk0 V c 0 t : Vec Ideal S5000x64 .f32) (V c main_arg0 : Vec Ideal S100000x64 .f32) := fun r hr k => by
  obtain ⟨e0, e1, -, -, -, -⟩ := index_facts0 t
  unfold iblk0
  rw [View.read_apply]
  show V c main_arg0 _ = V c main_arg0 _
  congr 1
  funext a
  apply Fin.ext
  match a with
  | ⟨0, _⟩ => show win0_0.index t (0 : Fin 2) * 5000 + 1 * r.val = 5000 * t.val + r.val; rw [e0]; omega
  | ⟨1, _⟩ => show win0_0.index t (1 : Fin 2) * 64 + 1 * k.val = k.val; rw [e1]; omega

/-- The second input window's one block is its whole array, at every point. -/
theorem whole0 (c : Dev nD) (t : Fin cfg0.N) :
    (iblk0 V c 1 t : Vec Ideal S64x64 .f32) = (V c main_arg4 : Vec Ideal S64x64 .f32) := by
  obtain ⟨-, -, e2, e3, -, -⟩ := index_facts0 t
  refine funext fun (y : S64x64.Idx) => ?_
  unfold iblk0
  rw [View.read_apply]
  show V c main_arg4 _ = V c main_arg4 _
  congr 1
  funext a
  apply Fin.ext
  match a with
  | ⟨0, _⟩ => show win0_1.index t (0 : Fin 2) * S64x64.size 0 + 1 * (y 0).val = (y 0).val; rw [e2]; omega
  | ⟨1, _⟩ => show win0_1.index t (1 : Fin 2) * S64x64.size 1 + 1 * (y 1).val = (y 1).val; rw [e3]; omega

/-- An index of the output array is in point `t`'s block iff each coordinate is in the block's range. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row r of the output array is written back by point r / 5000: the 20 blocks tile the array. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e4, e5⟩ := index_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 64 ≤ (i 1).val ∧ (i 1).val < win0_2.index t (1 : Fin 2) * 64 + 64; rw [e5]; omega

/-- If what the body stores at every point `t` is rows 5000·t … of one matrix `G`, the output array ends
    holding `G`: each point writes its block of `G` back, and the blocks tile the array. -/
theorem arr0_eq (c : Dev nD) (G : Vec Ideal S100000x64 .f32)
    (hG : ∀ t : Fin cfg0.N, RowBlk (5000 * t.val) (k0_pay1 (F := Ideal) (iblk0 V c 0 t) (iblk0 V c 1 t)) G) :
    (dat0 V c).arrAt 2 cfg0.N = G := by
  refine (dat0 V c).arrAt_eq_of_cover 2 G (fun t _ => ?_) cover0
  obtain ⟨-, -, -, -, e4, e5⟩ := index_facts0 t
  have hN : cfg0.N = 20 := N_0
  have ht : t.val < 20 := hN ▸ t.isLt
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  refine funext fun (j : S5000x64.Idx) => ?_
  obtain ⟨r, k, rfl⟩ : ∃ (r : Fin 5000) (k : Fin 64), j = ix2 r k := ⟨j 0, j 1, eq_ix2 j⟩
  have hr : 5000 * t.val + r.val < 100000 := by have := r.isLt; omega
  refine (hG t r hr k).trans ?_
  rw [View.read_apply]
  show G _ = G _
  congr 1
  funext a
  apply Fin.ext
  match a with
  | ⟨0, _⟩ => show 5000 * t.val + r.val = win0_2.index t (0 : Fin 2) * 5000 + 1 * r.val; rw [e4]; omega
  | ⟨1, _⟩ => show k.val = win0_2.index t (1 : Fin 2) * 64 + 1 * k.val; rw [e5]; omega

/-! ## Region 1: input windows over `main_v13` (blocks of rows) and `main_v14` (whole), output window over `main_v15` -/

/-- The three index maps over the 20 grid points: the row-blocked windows are at block row `t`, block column 0;
    the small operand's one block is at (0, 0). -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first input window's block at point `t` is rows 5000·t … 5000·t + 4999 of its array. -/
theorem rows1 (c : Dev nD) (t : Fin cfg1.N) :
    RowBlk (5000 * t.val) (iblk1 V c 0 t : Vec Ideal S5000x64 .f32) (V c main_v13 : Vec Ideal S100000x64 .f32) := fun r hr k => by
  obtain ⟨e0, e1, -, -, -, -⟩ := index_facts1 t
  unfold iblk1
  rw [View.read_apply]
  show V c main_v13 _ = V c main_v13 _
  congr 1
  funext a
  apply Fin.ext
  match a with
  | ⟨0, _⟩ => show win1_0.index t (0 : Fin 2) * 5000 + 1 * r.val = 5000 * t.val + r.val; rw [e0]; omega
  | ⟨1, _⟩ => show win1_0.index t (1 : Fin 2) * 64 + 1 * k.val = k.val; rw [e1]; omega

/-- The second input window's one block is its whole array, at every point. -/
theorem whole1 (c : Dev nD) (t : Fin cfg1.N) :
    (iblk1 V c 1 t : Vec Ideal S1x64 .f32) = (V c main_v14 : Vec Ideal S1x64 .f32) := by
  obtain ⟨-, -, e2, e3, -, -⟩ := index_facts1 t
  refine funext fun (y : S1x64.Idx) => ?_
  unfold iblk1
  rw [View.read_apply]
  show V c main_v14 _ = V c main_v14 _
  congr 1
  funext a
  apply Fin.ext
  match a with
  | ⟨0, _⟩ => show win1_1.index t (0 : Fin 2) * S1x64.size 0 + 1 * (y 0).val = (y 0).val; rw [e2]; omega
  | ⟨1, _⟩ => show win1_1.index t (1 : Fin 2) * S1x64.size 1 + 1 * (y 1).val = (y 1).val; rw [e3]; omega

/-- An index of the output array is in point `t`'s block iff each coordinate is in the block's range. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v15).slice (win1_2.rect t)).set ↔ _
  rw [View.set_slice_whole, Rect.mem_set_unit]
  exact Iff.rfl

/-- Row r of the output array is written back by point r / 5000: the 20 blocks tile the array. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, e4, e5⟩ := index_facts1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 64 ≤ (i 1).val ∧ (i 1).val < win1_2.index t (1 : Fin 2) * 64 + 64; rw [e5]; omega

/-- If what the body stores at every point `t` is rows 5000·t … of one matrix `G`, the output array ends
    holding `G`: each point writes its block of `G` back, and the blocks tile the array. -/
theorem arr1_eq (c : Dev nD) (G : Vec Ideal S100000x64 .f32)
    (hG : ∀ t : Fin cfg1.N, RowBlk (5000 * t.val) (k1_pay1 (F := Ideal) (iblk1 V c 0 t) (iblk1 V c 1 t)) G) :
    (dat1 V c).arrAt 2 cfg1.N = G := by
  refine (dat1 V c).arrAt_eq_of_cover 2 G (fun t _ => ?_) cover1
  obtain ⟨-, -, -, -, e4, e5⟩ := index_facts1 t
  have hN : cfg1.N = 20 := N_1
  have ht : t.val < 20 := hN ▸ t.isLt
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  refine funext fun (j : S5000x64.Idx) => ?_
  obtain ⟨r, k, rfl⟩ : ∃ (r : Fin 5000) (k : Fin 64), j = ix2 r k := ⟨j 0, j 1, eq_ix2 j⟩
  have hr : 5000 * t.val + r.val < 100000 := by have := r.isLt; omega
  refine (hG t r hr k).trans ?_
  rw [View.read_apply]
  show G _ = G _
  congr 1
  funext a
  apply Fin.ext
  match a with
  | ⟨0, _⟩ => show 5000 * t.val + r.val = win1_2.index t (0 : Fin 2) * 5000 + 1 * r.val; rw [e4]; omega
  | ⟨1, _⟩ => show k.val = win1_2.index t (1 : Fin 2) * 64 + 1 * k.val; rw [e5]; omega

/-! ## Region 2: input windows over `main_v15` (blocks of rows) and `main_arg6` (whole), output window over `main_v16` -/

/-- The three index maps over the 20 grid points: the row-blocked windows are at block row `t`, block column 0;
    the small operand's one block is at (0, 0). -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The first input window's block at point `t` is rows 5000·t … 5000·t + 4999 of its array. -/
theorem rows2 (c : Dev nD) (t : Fin cfg2.N) :
    RowBlk (5000 * t.val) (iblk2 V c 0 t : Vec Ideal S5000x64 .f32) (V c main_v15 : Vec Ideal S100000x64 .f32) := fun r hr k => by
  obtain ⟨e0, e1, -, -, -, -⟩ := index_facts2 t
  unfold iblk2
  rw [View.read_apply]
  show V c main_v15 _ = V c main_v15 _
  congr 1
  funext a
  apply Fin.ext
  match a with
  | ⟨0, _⟩ => show win2_0.index t (0 : Fin 2) * 5000 + 1 * r.val = 5000 * t.val + r.val; rw [e0]; omega
  | ⟨1, _⟩ => show win2_0.index t (1 : Fin 2) * 64 + 1 * k.val = k.val; rw [e1]; omega

/-- The second input window's one block is its whole array, at every point. -/
theorem whole2 (c : Dev nD) (t : Fin cfg2.N) :
    (iblk2 V c 1 t : Vec Ideal S64x64 .f32) = (V c main_arg6 : Vec Ideal S64x64 .f32) := by
  obtain ⟨-, -, e2, e3, -, -⟩ := index_facts2 t
  refine funext fun (y : S64x64.Idx) => ?_
  unfold iblk2
  rw [View.read_apply]
  show V c main_arg6 _ = V c main_arg6 _
  congr 1
  funext a
  apply Fin.ext
  match a with
  | ⟨0, _⟩ => show win2_1.index t (0 : Fin 2) * S64x64.size 0 + 1 * (y 0).val = (y 0).val; rw [e2]; omega
  | ⟨1, _⟩ => show win2_1.index t (1 : Fin 2) * S64x64.size 1 + 1 * (y 1).val = (y 1).val; rw [e3]; omega

/-- An index of the output array is in point `t`'s block iff each coordinate is in the block's range. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v16).slice (win2_2.rect t)).set ↔ _
  rw [View.set_slice_whole, Rect.mem_set_unit]
  exact Iff.rfl

/-- Row r of the output array is written back by point r / 5000: the 20 blocks tile the array. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, e4, e5⟩ := index_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 64 ≤ (i 1).val ∧ (i 1).val < win2_2.index t (1 : Fin 2) * 64 + 64; rw [e5]; omega

/-- If what the body stores at every point `t` is rows 5000·t … of one matrix `G`, the output array ends
    holding `G`: each point writes its block of `G` back, and the blocks tile the array. -/
theorem arr2_eq (c : Dev nD) (G : Vec Ideal S100000x64 .f32)
    (hG : ∀ t : Fin cfg2.N, RowBlk (5000 * t.val) (k2_pay1 (F := Ideal) (iblk2 V c 0 t) (iblk2 V c 1 t)) G) :
    (dat2 V c).arrAt 2 cfg2.N = G := by
  refine (dat2 V c).arrAt_eq_of_cover 2 G (fun t _ => ?_) cover2
  obtain ⟨-, -, -, -, e4, e5⟩ := index_facts2 t
  have hN : cfg2.N = 20 := N_2
  have ht : t.val < 20 := hN ▸ t.isLt
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  refine funext fun (j : S5000x64.Idx) => ?_
  obtain ⟨r, k, rfl⟩ : ∃ (r : Fin 5000) (k : Fin 64), j = ix2 r k := ⟨j 0, j 1, eq_ix2 j⟩
  have hr : 5000 * t.val + r.val < 100000 := by have := r.isLt; omega
  refine (hG t r hr k).trans ?_
  rw [View.read_apply]
  show G _ = G _
  congr 1
  funext a
  apply Fin.ext
  match a with
  | ⟨0, _⟩ => show 5000 * t.val + r.val = win2_2.index t (0 : Fin 2) * 5000 + 1 * r.val; rw [e4]; omega
  | ⟨1, _⟩ => show k.val = win2_2.index t (1 : Fin 2) * 64 + 1 * k.val; rw [e5]; omega

/-! ## Region 3: input windows over `main_v29` (blocks of rows) and `main_v30` (whole), output window over `main_v31` -/

/-- The three index maps over the 20 grid points: the row-blocked windows are at block row `t`, block column 0;
    the small operand's one block is at (0, 0). -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The first input window's block at point `t` is rows 5000·t … 5000·t + 4999 of its array. -/
theorem rows3 (c : Dev nD) (t : Fin cfg3.N) :
    RowBlk (5000 * t.val) (iblk3 V c 0 t : Vec Ideal S5000x64 .f32) (V c main_v29 : Vec Ideal S100000x64 .f32) := fun r hr k => by
  obtain ⟨e0, e1, -, -, -, -⟩ := index_facts3 t
  unfold iblk3
  rw [View.read_apply]
  show V c main_v29 _ = V c main_v29 _
  congr 1
  funext a
  apply Fin.ext
  match a with
  | ⟨0, _⟩ => show win3_0.index t (0 : Fin 2) * 5000 + 1 * r.val = 5000 * t.val + r.val; rw [e0]; omega
  | ⟨1, _⟩ => show win3_0.index t (1 : Fin 2) * 64 + 1 * k.val = k.val; rw [e1]; omega

/-- The second input window's one block is its whole array, at every point. -/
theorem whole3 (c : Dev nD) (t : Fin cfg3.N) :
    (iblk3 V c 1 t : Vec Ideal S1x64 .f32) = (V c main_v30 : Vec Ideal S1x64 .f32) := by
  obtain ⟨-, -, e2, e3, -, -⟩ := index_facts3 t
  refine funext fun (y : S1x64.Idx) => ?_
  unfold iblk3
  rw [View.read_apply]
  show V c main_v30 _ = V c main_v30 _
  congr 1
  funext a
  apply Fin.ext
  match a with
  | ⟨0, _⟩ => show win3_1.index t (0 : Fin 2) * S1x64.size 0 + 1 * (y 0).val = (y 0).val; rw [e2]; omega
  | ⟨1, _⟩ => show win3_1.index t (1 : Fin 2) * S1x64.size 1 + 1 * (y 1).val = (y 1).val; rw [e3]; omega

/-- An index of the output array is in point `t`'s block iff each coordinate is in the block's range. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v31).slice (win3_2.rect t)).set ↔ _
  rw [View.set_slice_whole, Rect.mem_set_unit]
  exact Iff.rfl

/-- Row r of the output array is written back by point r / 5000: the 20 blocks tile the array. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨-, -, -, -, e4, e5⟩ := index_facts3 t
  have ht : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 64 ≤ (i 1).val ∧ (i 1).val < win3_2.index t (1 : Fin 2) * 64 + 64; rw [e5]; omega

/-- If what the body stores at every point `t` is rows 5000·t … of one matrix `G`, the output array ends
    holding `G`: each point writes its block of `G` back, and the blocks tile the array. -/
theorem arr3_eq (c : Dev nD) (G : Vec Ideal S100000x64 .f32)
    (hG : ∀ t : Fin cfg3.N, RowBlk (5000 * t.val) (k3_pay1 (F := Ideal) (iblk3 V c 0 t) (iblk3 V c 1 t)) G) :
    (dat3 V c).arrAt 2 cfg3.N = G := by
  refine (dat3 V c).arrAt_eq_of_cover 2 G (fun t _ => ?_) cover3
  obtain ⟨-, -, -, -, e4, e5⟩ := index_facts3 t
  have hN : cfg3.N = 20 := N_3
  have ht : t.val < 20 := hN ▸ t.isLt
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  refine funext fun (j : S5000x64.Idx) => ?_
  obtain ⟨r, k, rfl⟩ : ∃ (r : Fin 5000) (k : Fin 64), j = ix2 r k := ⟨j 0, j 1, eq_ix2 j⟩
  have hr : 5000 * t.val + r.val < 100000 := by have := r.isLt; omega
  refine (hG t r hr k).trans ?_
  rw [View.read_apply]
  show G _ = G _
  congr 1
  funext a
  apply Fin.ext
  match a with
  | ⟨0, _⟩ => show 5000 * t.val + r.val = win3_2.index t (0 : Fin 2) * 5000 + 1 * r.val; rw [e4]; omega
  | ⟨1, _⟩ => show k.val = win3_2.index t (1 : Fin 2) * 64 + 1 * k.val; rw [e5]; omega

end Cert.KernelIdeal.Blocks

end
-- ==== Proof.Spec.lean ====
/-
  The two-layer graph convolution both programs compute, as one function of the eight argument arrays, at the
  extended reals, in the host's own operations over the reference's dimension records.

  One layer takes node features X (100000 × 64), multiplies them by a 64 × 64 weight matrix (`dense`), and
  aggregates over the 3200000 edges (`aggregate`): edge e contributes val[e] times row col[e] of the product to
  row row[e] of the result — a gather of rows (a negative column index wrapped once by the extent), an entrywise
  product with the edge weights, and a scatter-add from the zero matrix. Then the bias row is added to every row
  (`biasRows` of `rowOf`). Between the two layers sits the leaky rectifier with slope f32(0.2) (`leaky`).
  `net` is the composition.
-/
import proofs.«137188_j28621662060799_1_alg».proof.ReferenceIdeal
import proofs.«137188_j28621662060799_1_alg».proof.Proof.Gen.ReferenceIdeal
import Idealize.ShloMosaic.PureOps.Ideal

noncomputable section

namespace Cert.Spec

open Idealize.ShloMosaic Cert.ReferenceIdeal Cert.ReferenceIdeal.Facts₀

/-- Node features times a weight matrix. -/
def dense (X : FVec Ideal S100000x64 .f32) (W : FVec Ideal S64x64 .f32) : FVec Ideal S100000x64 .f32 :=
  Host.dotGeneral dot_S100000x64_S64x64_S100000x64_1_0_0_1_n_n none X W

/-- A vector of 64 numbers as a 1 × 64 row. -/
def rowOf (b : FVec Ideal S64 .f32) : FVec Ideal S1x64 .f32 :=
  broadcastInDim S1x64 ![1] bcast_S64_S1x64_1 b

/-- A 1 × 64 row repeated down the 100000 rows. -/
def biasRows (b : FVec Ideal S1x64 .f32) : FVec Ideal S100000x64 .f32 :=
  broadcastInDim S100000x64 ![0, 1] bcast_S1x64_S100000x64_0_1 b

/-- The leaky rectifier: an entry that is ≥ 0 is kept, any other is multiplied by f32(0.2). -/
def leaky (v : FVec Ideal S100000x64 .f32) : FVec Ideal S100000x64 .f32 :=
  select (cmpf .oge v (broadcastInDim S100000x64 ![] bcast_S_S100000x64 (constant S_ .f32 0x00000000#32))) v
    (mulf (broadcastInDim S100000x64 ![] bcast_S_S100000x64 (constant S_ .f32 0x3E4CCCCD#32)) v)

/-- The sparse aggregation over the edge list: row row[e] of the result collects val[e] · (row col[e] of S). -/
def aggregate (S : FVec Ideal S100000x64 .f32) (row col : IVec S3200000 32) (val : FVec Ideal S3200000 .f32) :
    FVec Ideal S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 row)
    (mulf (broadcastInDim S3200000x64 ![0, 1] bcast_S3200000x1_S3200000x64_0_1 (broadcastInDim S3200000x1 ![0] bcast_S3200000_S3200000x1_0 val))
      (Host.gather gather_S100000x64_S3200000x1_S3200000x64_1_0_n_n_0_1_164 S
        (broadcastInDim S3200000x1 ![0] bcast_S3200000_S3200000x1_0
          (select (cmpi .slt col (broadcastInDim S3200000 ![] bcast_S_S3200000 (constantI S_ 32 0#32)))
            (addi col (broadcastInDim S3200000 ![] bcast_S_S3200000 (constantI S_ 32 100000#32))) col))))

/-- The two layers: aggregate(x · W1) + b1, the leaky rectifier, aggregate(· W2) + b2. -/
def net (x : FVec Ideal S100000x64 .f32) (row col : IVec S3200000 32) (val : FVec Ideal S3200000 .f32)
    (W1 : FVec Ideal S64x64 .f32) (b1 : FVec Ideal S64 .f32) (W2 : FVec Ideal S64x64 .f32) (b2 : FVec Ideal S64 .f32) :
    FVec Ideal S100000x64 .f32 :=
  addf (aggregate (dense (leaky (addf (aggregate (dense x W1) row col val) (biasRows (rowOf b1)))) W2) row col val)
    (biasRows (rowOf b2))

end Cert.Spec

end
-- ==== Proof.LibLeakyRows.lean ====
/-
  The leaky rectifier on a block of rows, at the extended reals.

  The map x ↦ x when x ≥ z, and s · x otherwise, is spelt with a comparison, a product with the slope and a
  selection between the entry and the product. It acts on each entry by itself, so on a block of rows of a matrix it
  gives the same block of rows of what it gives on the whole matrix. Inside a kernel body the threshold z and the
  slope s are scalars splat over the block; on the host they are rank-0 constants broadcast to the whole matrix. No
  finiteness is asked of any entry: the two sides are the same expression of the same entry.
-/
import proofs.«137188_j28621662060799_1_alg».proof.Proof.LibPlainRecord

noncomputable section

namespace Cert.Lib.DenseLayer

open Idealize.ShloMosaic Idealize.ShloMosaic.ValueIdx

/-- A rank-0 constant broadcast to a matrix holds the constant's value at every entry. -/
theorem scalarConst_apply {M K : Nat} (w : BitVec 32)
    (hB : (⟨0, ![]⟩ : Shape).BroadcastsInDim ⟨2, ![M, K]⟩ ![]) (i : (⟨2, ![M, K]⟩ : Shape).Idx) :
    broadcastInDim ⟨2, ![M, K]⟩ ![] hB (constant (F := Ideal) ⟨0, ![]⟩ .f32 w) i = Ideal.ofBits .f32 w :=
  broadcastInDim_apply ![] hB (constant (F := Ideal) ⟨0, ![]⟩ .f32 w) i ix0 (fun a => a.elim0)

/-- The leaky rectifier with threshold word `zw` and slope word `sw`: on a block of rows with splat scalars, it
    is the block of rows of the host's form with broadcast rank-0 constants. -/
theorem RowBlk.leaky {Mb M K : Nat} {off : Nat} {a : FVec Ideal ⟨2, ![Mb, K]⟩ .f32} {A : FVec Ideal ⟨2, ![M, K]⟩ .f32}
    (ha : RowBlk off a A) (zw sw : BitVec 32)
    (hB : (⟨0, ![]⟩ : Shape).BroadcastsInDim ⟨2, ![M, K]⟩ ![]) :
    RowBlk off
      (select (cmpf .oge a (broadcast ⟨2, ![Mb, K]⟩ (Scalar.ofBits (F := Ideal) .f32 zw))) a
        (mulf (broadcast ⟨2, ![Mb, K]⟩ (Scalar.ofBits (F := Ideal) .f32 sw)) a))
      (select (cmpf .oge A (broadcastInDim ⟨2, ![M, K]⟩ ![] hB (constant (F := Ideal) ⟨0, ![]⟩ .f32 zw))) A
        (mulf (broadcastInDim ⟨2, ![M, K]⟩ ![] hB (constant (F := Ideal) ⟨0, ![]⟩ .f32 sw)) A)) := fun r hr k => by
  rw [select_apply, select_apply, cmpf_apply, cmpf_apply, mulf_apply, mulf_apply, broadcast_apply, broadcast_apply,
    scalarConst_apply, scalarConst_apply, ha r hr k]
  rfl

end Cert.Lib.DenseLayer

end
-- ==== Proof.Layers.lean ====
/-
  What each of the four kernel bodies computes from one block of rows, at the extended reals.

  Every body loads a block of 5000 consecutive rows of a 100000 × 64 matrix and a small second operand that is
  the same at every grid point (a 64 × 64 weight matrix, or a 1 × 64 bias row), and stores one 5000 × 64 block. The
  matrix product into a zero accumulator (its operands narrowed to bf16 first: the identity at the extended reals),
  the addition of the bias row, and the leaky rectifier all act on each row by itself. So the block a body stores
  is the same block of rows of the host's operation applied to the whole matrix: `Spec.dense`, or the bias rows
  added, with `Spec.leaky` after it in the first layer.
-/
import proofs.«137188_j28621662060799_1_alg».proof.Proof.Gen.KernelIdeal.Skeleton
import proofs.«137188_j28621662060799_1_alg».proof.Proof.Spec
import proofs.«137188_j28621662060799_1_alg».proof.Proof.LibLeakyRows

noncomputable section

namespace Cert.KernelIdeal.Layers

open Idealize.ShloMosaic Idealize.ShloMosaic.ValueIdx Cert.KernelIdeal Cert.KernelIdeal.Gen Cert.Lib.DenseLayer

/-- The body's product record (5000 rows) is the textbook product. -/
theorem plainBlock : Plain dot_S5000x64_S64x64_S5000x64_1_0_0_1_n_n :=
  Plain.of_fields _ rfl rfl rfl rfl rfl rfl

/-- The host's product record (100000 rows) is the textbook product. -/
theorem plainHost : Plain Cert.ReferenceIdeal.dot_S100000x64_S64x64_S100000x64_1_0_0_1_n_n :=
  Plain.of_fields _ rfl rfl rfl rfl rfl rfl

/-- First product kernel: a block of rows of x, times the weights, is the block of rows of x · W. -/
theorem matmul0_rows {off : Nat} {x : FVec Ideal S5000x64 .f32} {X : FVec Ideal Cert.ReferenceIdeal.S100000x64 .f32}
    (h : RowBlk off x X) (w : FVec Ideal S64x64 .f32) :
    RowBlk off (k0_pay1 (F := Ideal) x w) (Cert.Spec.dense X w) := by
  unfold k0_pay1 Cert.Spec.dense
  exact RowBlk.matmul plainBlock plainHost h w bitsLt_bf16_f32 bitsLt_bf16_f32

/-- Second product kernel: the same, after a reshape of the block to its own shape. -/
theorem matmul2_rows {off : Nat} {x : FVec Ideal S5000x64 .f32} {X : FVec Ideal Cert.ReferenceIdeal.S100000x64 .f32}
    (h : RowBlk off x X) (w : FVec Ideal S64x64 .f32) :
    RowBlk off (k2_pay1 (F := Ideal) x w) (Cert.Spec.dense X w) := by
  unfold k2_pay1 Cert.Spec.dense
  exact RowBlk.matmul plainBlock plainHost (h.castSelf shapeCasts_S5000x64_S5000x64) w bitsLt_bf16_f32 bitsLt_bf16_f32

/-- A block of rows plus the bias row is the block of rows of the matrix plus the bias rows. -/
theorem addBias_rows {off : Nat} {x : FVec Ideal S5000x64 .f32} {X : FVec Ideal Cert.ReferenceIdeal.S100000x64 .f32}
    (h : RowBlk off x X) (b : FVec Ideal S1x64 .f32) :
    RowBlk off (addf (shapeCast S5000x64 x shapeCasts_S5000x64_S5000x64)
        (broadcastTo S5000x64 (shapeCast S1x64 b shapeCasts_S1x64_S1x64) broadcasts_S1x64_S5000x64))
      (addf X (Cert.Spec.biasRows b)) := by
  rw [shapeCast_self b]
  exact (h.castSelf shapeCasts_S5000x64_S5000x64).add (RowBlk.bias b broadcasts_S1x64_S5000x64 _)

/-- First bias kernel: bias row added, then the leaky rectifier. -/
theorem biasAct1_rows {off : Nat} {x : FVec Ideal S5000x64 .f32} {X : FVec Ideal Cert.ReferenceIdeal.S100000x64 .f32}
    (h : RowBlk off x X) (b : FVec Ideal S1x64 .f32) :
    RowBlk off (k1_pay1 (F := Ideal) x b) (Cert.Spec.leaky (addf X (Cert.Spec.biasRows b))) := by
  unfold k1_pay1 Cert.Spec.leaky
  exact (addBias_rows h b).leaky 0x00000000#32 0x3E4CCCCD#32 _

/-- Second bias kernel: bias row added. -/
theorem bias3_rows {off : Nat} {x : FVec Ideal S5000x64 .f32} {X : FVec Ideal Cert.ReferenceIdeal.S100000x64 .f32}
    (h : RowBlk off x X) (b : FVec Ideal S1x64 .f32) :
    RowBlk off (k3_pay1 (F := Ideal) x b) (addf X (Cert.Spec.biasRows b)) := by
  unfold k3_pay1
  exact addBias_rows h b

end Cert.KernelIdeal.Layers

end
-- ==== Proof.Regions.lean ====
/-
  What each pipelined call leaves in its output array, as the host's operation of the arrays it found.

  The first and third calls leave the product of their first array with their 64 × 64 second array
  (`Spec.dense`); the second leaves its first array plus the bias rows, through the leaky rectifier; the fourth
  leaves its first array plus the bias rows. Each body's block is the block of rows of that matrix (Layers), and
  the blocks tile the output (Blocks).
-/
import proofs.«137188_j28621662060799_1_alg».proof.Proof.Blocks
import proofs.«137188_j28621662060799_1_alg».proof.Proof.Layers

noncomputable section

namespace Cert.KernelIdeal.Regions

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The first product call: x · W1 of what it found in its two input arrays. -/
theorem arr0 (c : Dev nD) : (dat0 V c).arrAt 2 cfg0.N = Cert.Spec.dense (V c main_arg0) (V c main_arg4) :=
  Blocks.arr0_eq V c _ fun t => by
    rw [Blocks.whole0 V c t]; exact Layers.matmul0_rows (Blocks.rows0 V c t) _

/-- The first bias call: the aggregate plus the bias rows, through the leaky rectifier. -/
theorem arr1 (c : Dev nD) :
    (dat1 V c).arrAt 2 cfg1.N = Cert.Spec.leaky (addf (V c main_v13) (Cert.Spec.biasRows (V c main_v14))) :=
  Blocks.arr1_eq V c _ fun t => by
    rw [Blocks.whole1 V c t]; exact Layers.biasAct1_rows (Blocks.rows1 V c t) _

/-- The second product call: h · W2. -/
theorem arr2 (c : Dev nD) : (dat2 V c).arrAt 2 cfg2.N = Cert.Spec.dense (V c main_v15) (V c main_arg6) :=
  Blocks.arr2_eq V c _ fun t => by
    rw [Blocks.whole2 V c t]; exact Layers.matmul2_rows (Blocks.rows2 V c t) _

/-- The second bias call: the aggregate plus the bias rows. -/
theorem arr3 (c : Dev nD) :
    (dat3 V c).arrAt 2 cfg3.N = addf (V c main_v29) (Cert.Spec.biasRows (V c main_v30)) :=
  Blocks.arr3_eq V c _ fun t => by
    rw [Blocks.whole3 V c t]; exact Layers.bias3_rows (Blocks.rows3 V c t) _

end Cert.KernelIdeal.Regions

end
-- ==== Proof.HostGlue.lean ====
/-
  The two stretches of host operations between the pipelined calls, from any buffer contents W.

  Each stretch is the sparse aggregation of one layer — the edge weights broadcast, the column indices wrapped and
  gathered, the entrywise product, the scatter-add into zeros — applied to the product array the call before it
  left, followed by the reshape of the layer's bias vector to a 1 × 64 row. Read at the aggregate's buffer the
  stretch gives `Spec.aggregate` of that array and of the three edge arrays; read at the row's buffer it gives the
  bias vector as a row (a reshape [64] → [1, 64] is the broadcast along a new leading unit axis); no argument's
  buffer is written.
-/
import proofs.«137188_j28621662060799_1_alg».proof.Proof.Gen.KernelIdeal.Launch
import proofs.«137188_j28621662060799_1_alg».proof.Proof.Spec
import proofs.«137188_j28621662060799_1_alg».proof.Proof.LibDenseLayer
import Idealize.ShloMosaic.Lib.StableHlo.Run

noncomputable section

namespace Cert.KernelIdeal.HostGlue

open Idealize.ShloMosaic Idealize.ShloMosaic.TcCoe Idealize.SL.Sem Idealize.ShloMosaic.StableHlo
open Cert.KernelIdeal Cert.KernelIdeal.Gen

variable (W : Valuation τ sig (Elt Ideal))

/-- After the first stretch, the aggregate's buffer. -/
theorem stretch1_aggregate :
    StableHlo.after (hostOps1 (F := Ideal)) W (Proc.devRef .tc main_v13)
      = Cert.Spec.aggregate (W (Proc.devRef .tc main_v0)) (W (Proc.devRef .tc main_arg1)) (W (Proc.devRef .tc main_arg2))
          (W (Proc.devRef .tc main_arg3)) := by
  after_results
  rfl

/-- After the first stretch, the bias row's buffer. -/
theorem stretch1_row :
    StableHlo.after (hostOps1 (F := Ideal)) W (Proc.devRef .tc main_v14) = Cert.Spec.rowOf (W (Proc.devRef .tc main_arg5)) := by
  after_results
  exact Cert.Lib.DenseLayer.addUnit_eq_bcast (by decide) _ _ _

/-- After the second stretch, the aggregate's buffer. -/
theorem stretch3_aggregate :
    StableHlo.after (hostOps3 (F := Ideal)) W (Proc.devRef .tc main_v29)
      = Cert.Spec.aggregate (W (Proc.devRef .tc main_v16)) (W (Proc.devRef .tc main_arg1)) (W (Proc.devRef .tc main_arg2))
          (W (Proc.devRef .tc main_arg3)) := by
  after_results
  rfl

/-- After the second stretch, the bias row's buffer. -/
theorem stretch3_row :
    StableHlo.after (hostOps3 (F := Ideal)) W (Proc.devRef .tc main_v30) = Cert.Spec.rowOf (W (Proc.devRef .tc main_arg7)) := by
  after_results
  exact Cert.Lib.DenseLayer.addUnit_eq_bcast (by decide) _ _ _

/-- The first stretch writes no argument's buffer, nor the second layer's weights'. -/
theorem stretch1_keep_arg1 : StableHlo.after (hostOps1 (F := Ideal)) W (Proc.devRef .tc main_arg1) = W (Proc.devRef .tc main_arg1) := by
  after_results
theorem stretch1_keep_arg2 : StableHlo.after (hostOps1 (F := Ideal)) W (Proc.devRef .tc main_arg2) = W (Proc.devRef .tc main_arg2) := by
  after_results
theorem stretch1_keep_arg3 : StableHlo.after (hostOps1 (F := Ideal)) W (Proc.devRef .tc main_arg3) = W (Proc.devRef .tc main_arg3) := by
  after_results
theorem stretch1_keep_arg6 : StableHlo.after (hostOps1 (F := Ideal)) W (Proc.devRef .tc main_arg6) = W (Proc.devRef .tc main_arg6) := by
  after_results
theorem stretch1_keep_arg7 : StableHlo.after (hostOps1 (F := Ideal)) W (Proc.devRef .tc main_arg7) = W (Proc.devRef .tc main_arg7) := by
  after_results

end Cert.KernelIdeal.HostGlue

end
-- ==== Proof.Fold.lean ====
/-
  The result buffer after the last segment, read back through the six segments to the launch contents.

  Segment by segment: the first call leaves x · W1; the first stretch of host operations aggregates it over the
  edges and makes the bias a row; the second call adds the bias rows and applies the leaky rectifier; the third
  call multiplies by W2; the second stretch aggregates again and makes the second bias a row; the fourth call adds
  the bias rows. No segment writes an argument's buffer, so each argument is read at its launch contents
  throughout. Composed, the result buffer holds `Spec.net` of the eight arguments.
-/
import proofs.«137188_j28621662060799_1_alg».proof.Proof.Regions
import proofs.«137188_j28621662060799_1_alg».proof.Proof.HostGlue

noncomputable section

namespace Cert.KernelIdeal.Fold

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## After the first call -/

theorem w1_v0 : W1 m ρ c (Proc.devRef .tc main_v0) = Cert.Spec.dense (m ((c : Thread nD τ).loc main_arg0)) (m ((c : Thread nD τ).loc main_arg4)) :=
  (W1_arr m ρ c 2).trans (Regions.arr0 (V0 m ρ) c)
theorem w1_arg1 : W1 m ρ c (Proc.devRef .tc main_arg1) = (m ((c : Thread nD τ).loc main_arg1)) := W1_of_ne m ρ c main_arg1 (by decide)
theorem w1_arg2 : W1 m ρ c (Proc.devRef .tc main_arg2) = (m ((c : Thread nD τ).loc main_arg2)) := W1_of_ne m ρ c main_arg2 (by decide)
theorem w1_arg3 : W1 m ρ c (Proc.devRef .tc main_arg3) = (m ((c : Thread nD τ).loc main_arg3)) := W1_of_ne m ρ c main_arg3 (by decide)
theorem w1_arg5 : W1 m ρ c (Proc.devRef .tc main_arg5) = (m ((c : Thread nD τ).loc main_arg5)) := W1_of_ne m ρ c main_arg5 (by decide)
theorem w1_arg6 : W1 m ρ c (Proc.devRef .tc main_arg6) = (m ((c : Thread nD τ).loc main_arg6)) := W1_of_ne m ρ c main_arg6 (by decide)
theorem w1_arg7 : W1 m ρ c (Proc.devRef .tc main_arg7) = (m ((c : Thread nD τ).loc main_arg7)) := W1_of_ne m ρ c main_arg7 (by decide)

/-! ## After the first stretch of host operations -/

theorem w2_v13 : W2 m ρ c (Proc.devRef .tc main_v13)
    = Cert.Spec.aggregate (Cert.Spec.dense (m ((c : Thread nD τ).loc main_arg0)) (m ((c : Thread nD τ).loc main_arg4))) (m ((c : Thread nD τ).loc main_arg1)) (m ((c : Thread nD τ).loc main_arg2)) (m ((c : Thread nD τ).loc main_arg3)) :=
  (HostGlue.stretch1_aggregate (W1 m ρ c)).trans (by rw [w1_v0, w1_arg1, w1_arg2, w1_arg3])
theorem w2_v14 : W2 m ρ c (Proc.devRef .tc main_v14) = Cert.Spec.rowOf (m ((c : Thread nD τ).loc main_arg5)) :=
  (HostGlue.stretch1_row (W1 m ρ c)).trans (by rw [w1_arg5])
theorem w2_arg1 : W2 m ρ c (Proc.devRef .tc main_arg1) = (m ((c : Thread nD τ).loc main_arg1)) := (HostGlue.stretch1_keep_arg1 (W1 m ρ c)).trans (w1_arg1 m ρ c)
theorem w2_arg2 : W2 m ρ c (Proc.devRef .tc main_arg2) = (m ((c : Thread nD τ).loc main_arg2)) := (HostGlue.stretch1_keep_arg2 (W1 m ρ c)).trans (w1_arg2 m ρ c)
theorem w2_arg3 : W2 m ρ c (Proc.devRef .tc main_arg3) = (m ((c : Thread nD τ).loc main_arg3)) := (HostGlue.stretch1_keep_arg3 (W1 m ρ c)).trans (w1_arg3 m ρ c)
theorem w2_arg6 : W2 m ρ c (Proc.devRef .tc main_arg6) = (m ((c : Thread nD τ).loc main_arg6)) := (HostGlue.stretch1_keep_arg6 (W1 m ρ c)).trans (w1_arg6 m ρ c)
theorem w2_arg7 : W2 m ρ c (Proc.devRef .tc main_arg7) = (m ((c : Thread nD τ).loc main_arg7)) := (HostGlue.stretch1_keep_arg7 (W1 m ρ c)).trans (w1_arg7 m ρ c)

/-! ## After the second call -/

theorem w3_v15 : W3 m ρ c (Proc.devRef .tc main_v15)
    = Cert.Spec.leaky (addf (Cert.Spec.aggregate (Cert.Spec.dense (m ((c : Thread nD τ).loc main_arg0)) (m ((c : Thread nD τ).loc main_arg4))) (m ((c : Thread nD τ).loc main_arg1)) (m ((c : Thread nD τ).loc main_arg2)) (m ((c : Thread nD τ).loc main_arg3)))
        (Cert.Spec.biasRows (Cert.Spec.rowOf (m ((c : Thread nD τ).loc main_arg5))))) := by
  have e13 : V2 m ρ c main_v13 = _ := w2_v13 m ρ c
  have e14 : V2 m ρ c main_v14 = _ := w2_v14 m ρ c
  refine (W3_arr m ρ c 2).trans ((Regions.arr1 (V2 m ρ) c).trans ?_)
  rw [e13, e14]
theorem w3_arg1 : W3 m ρ c (Proc.devRef .tc main_arg1) = (m ((c : Thread nD τ).loc main_arg1)) := (W3_of_ne m ρ c main_arg1 (by decide)).trans (w2_arg1 m ρ c)
theorem w3_arg2 : W3 m ρ c (Proc.devRef .tc main_arg2) = (m ((c : Thread nD τ).loc main_arg2)) := (W3_of_ne m ρ c main_arg2 (by decide)).trans (w2_arg2 m ρ c)
theorem w3_arg3 : W3 m ρ c (Proc.devRef .tc main_arg3) = (m ((c : Thread nD τ).loc main_arg3)) := (W3_of_ne m ρ c main_arg3 (by decide)).trans (w2_arg3 m ρ c)
theorem w3_arg6 : W3 m ρ c (Proc.devRef .tc main_arg6) = (m ((c : Thread nD τ).loc main_arg6)) := (W3_of_ne m ρ c main_arg6 (by decide)).trans (w2_arg6 m ρ c)
theorem w3_arg7 : W3 m ρ c (Proc.devRef .tc main_arg7) = (m ((c : Thread nD τ).loc main_arg7)) := (W3_of_ne m ρ c main_arg7 (by decide)).trans (w2_arg7 m ρ c)

/-! ## After the third call -/

theorem w4_v16 : W4 m ρ c (Proc.devRef .tc main_v16)
    = Cert.Spec.dense (Cert.Spec.leaky (addf (Cert.Spec.aggregate (Cert.Spec.dense (m ((c : Thread nD τ).loc main_arg0)) (m ((c : Thread nD τ).loc main_arg4))) (m ((c : Thread nD τ).loc main_arg1)) (m ((c : Thread nD τ).loc main_arg2)) (m ((c : Thread nD τ).loc main_arg3)))
        (Cert.Spec.biasRows (Cert.Spec.rowOf (m ((c : Thread nD τ).loc main_arg5)))))) (m ((c : Thread nD τ).loc main_arg6)) := by
  have e15 : V3 m ρ c main_v15 = _ := w3_v15 m ρ c
  have e6 : V3 m ρ c main_arg6 = _ := w3_arg6 m ρ c
  refine (W4_arr m ρ c 2).trans ((Regions.arr2 (V3 m ρ) c).trans ?_)
  rw [e15, e6]
theorem w4_arg1 : W4 m ρ c (Proc.devRef .tc main_arg1) = (m ((c : Thread nD τ).loc main_arg1)) := (W4_of_ne m ρ c main_arg1 (by decide)).trans (w3_arg1 m ρ c)
theorem w4_arg2 : W4 m ρ c (Proc.devRef .tc main_arg2) = (m ((c : Thread nD τ).loc main_arg2)) := (W4_of_ne m ρ c main_arg2 (by decide)).trans (w3_arg2 m ρ c)
theorem w4_arg3 : W4 m ρ c (Proc.devRef .tc main_arg3) = (m ((c : Thread nD τ).loc main_arg3)) := (W4_of_ne m ρ c main_arg3 (by decide)).trans (w3_arg3 m ρ c)
theorem w4_arg7 : W4 m ρ c (Proc.devRef .tc main_arg7) = (m ((c : Thread nD τ).loc main_arg7)) := (W4_of_ne m ρ c main_arg7 (by decide)).trans (w3_arg7 m ρ c)

/-! ## After the second stretch of host operations, and after the fourth call -/

/-- The result buffer after the last segment holds the two-layer function of the eight arguments. -/
theorem result : W6 m ρ c (Proc.devRef .tc main_v31)
    = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e29 : V5 m ρ c main_v29 = Cert.Spec.aggregate (W4 m ρ c (Proc.devRef .tc main_v16)) (W4 m ρ c (Proc.devRef .tc main_arg1))
      (W4 m ρ c (Proc.devRef .tc main_arg2)) (W4 m ρ c (Proc.devRef .tc main_arg3)) := HostGlue.stretch3_aggregate (W4 m ρ c)
  have e30 : V5 m ρ c main_v30 = Cert.Spec.rowOf (W4 m ρ c (Proc.devRef .tc main_arg7)) := HostGlue.stretch3_row (W4 m ρ c)
  refine (W6_arr m ρ c 2).trans ((Regions.arr3 (V5 m ρ) c).trans ?_)
  rw [e29, e30, w4_v16, w4_arg1, w4_arg2, w4_arg3, w4_arg7]
  rfl

end Cert.KernelIdeal.Fold

end
-- ==== Proof.RefValue.lean ====
/-
  The reference's result is `Spec.net` of its argument arrays: its composed term, operation by operation, is the
  specification's text.
-/
import proofs.«137188_j28621662060799_1_alg».proof.Proof.Spec
import proofs.«137188_j28621662060799_1_alg».proof.Proof.Gen.ReferenceIdeal.Run

noncomputable section

namespace Cert.ReferenceIdeal.RefValue

open Idealize.ShloMosaic Idealize.ShloMosaic.TcCoe Idealize.SL.Sem Cert.ReferenceIdeal Cert.ReferenceIdeal.Gen

/-- The reference run's result term is the two-layer function of the eight arguments. -/
theorem result_eq (m : (ℓ : Loc nD τ sig) → Buf (Elt Ideal) ℓ) (c : Dev nD) :
    Cert.ReferenceIdeal.Value.res_main_v38 (F := Ideal) m c
      = Cert.Spec.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v38
  rfl

end Cert.ReferenceIdeal.RefValue

end
-- ==== Proof.lean ====
/-
  A two-layer graph convolution on 100000 nodes with 64 features and 3200000 weighted edges: per layer
  aggregate(X · W) + b, the aggregation being the sparse sum over the edge list, with a leaky rectifier of slope
  f32(0.2) between the layers.

  The kernel program computes the two products X · W and the two bias additions (the first followed by the
  rectifier) in four pipelined calls over blocks of 5000 rows, and leaves the gather / scatter-add aggregation to
  the same host operations the reference uses. At the extended reals a block of rows of a product, of a sum with a
  bias row, or of the rectifier is the same block of rows of the whole-matrix operation (no finiteness is needed:
  both sides are the same sums of the same products), the 20 blocks tile each output array, and the narrowing of
  the product's operands to bf16 is the identity. So the result buffer of the kernel program and of the reference
  both end holding `Spec.net` of the eight arguments.

  The three frame claims are the generated frames (the reference's is its generated run with the result dropped);
  the idealization rewrote no operation, so `preserves` is trivial.
-/
import proofs.«137188_j28621662060799_1_alg».proof.Defs
import proofs.«137188_j28621662060799_1_alg».proof.Proof.Gen.Kernel
import proofs.«137188_j28621662060799_1_alg».proof.Proof.Gen.Kernel.Frame
import proofs.«137188_j28621662060799_1_alg».proof.Proof.Gen.KernelIdeal
import proofs.«137188_j28621662060799_1_alg».proof.Proof.Gen.KernelIdeal.Frame
import proofs.«137188_j28621662060799_1_alg».proof.Proof.Gen.ReferenceIdeal
import proofs.«137188_j28621662060799_1_alg».proof.Proof.Gen.Pre_finite_inputs
import proofs.«137188_j28621662060799_1_alg».proof.Proof.Gen.ReferenceIdeal.Run
import proofs.«137188_j28621662060799_1_alg».proof.Proof.KernelRun
import proofs.«137188_j28621662060799_1_alg».proof.Proof.Fold
import proofs.«137188_j28621662060799_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the two-layer function of the (agreeing) arguments. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Fold.result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.RefValue.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
